-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x128x512 : Shape := ⟨3, ![256, 128, 512]⟩
abbrev S1x512 : Shape := ⟨2, ![1, 512]⟩
abbrev S1 : Shape := ⟨1, ![1]⟩
abbrev S512x512 : Shape := ⟨2, ![512, 512]⟩
abbrev S_ : Shape := ⟨0, ![]⟩

class Facts : Prop where
  bcast_S_S256x128x512 : S_.BroadcastsInDim S256x128x512 (![] : Fin 0 → Fin S256x128x512.rank)
  reducesTo_S256x128x512_S_d0_1_2 : S256x128x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S256x128x512 .f32) (main_arg1 : FVec F S1x512 .f32) (main_arg2 : FVec F S1 .f32) (main_arg3 : FVec F S512x512 .f32) : IVec S_ 1 :=
  let main_v0 : FVec F S256x128x512 .f32 := Host.absf main_arg0
  let main_cst : FVec F S_ .f32 := constant S_ .f32 0x7F800000#32
  let main_v1 : FVec F S256x128x512 .f32 := broadcastInDim S256x128x512 ![] bcast_S_S256x128x512 main_cst
  let main_v2 : IVec S256x128x512 1 := cmpf .olt main_v0 main_v1
  let main_c : IVec S_ 1 := constantI S_ 1 1#1
  let main_v3 : IVec S_ 1 := (fun x v => Host.reduce IntOp.andi x v reducesTo_S256x128x512_S_d0_1_2 h_S_) main_v2 main_c
  let main_v4 : FVec F S1x512 .f32 := Host.absf main_arg1
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S256x128x512 : Shape := ⟨3, ![256, 128, 512]⟩
abbrev S1x512 : Shape := ⟨2, ![1, 512]⟩
abbrev S1 : Shape := ⟨1, ![1]⟩
abbrev S512x512 : Shape := ⟨2, ![512, 512]⟩
abbrev S32768x512 : Shape := ⟨2, ![32768, 512]⟩
abbrev S16x128 : Shape := ⟨2, ![16, 128]⟩
abbrev S32768x1 : Shape := ⟨2, ![32768, 1]⟩
abbrev S1024x512 : Shape := ⟨2, ![1024, 512]⟩
abbrev S8x128 : Shape := ⟨2, ![8, 128]⟩
abbrev S1024x1 : Shape := ⟨2, ![1024, 1]⟩
abbrev S1024 : Shape := ⟨1, ![1024]⟩
abbrev S1x1 : Shape := ⟨2, ![1, 1]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S256x128x512, .f32⟩
  | .hbm, ⟨1, _⟩ => ⟨S1x512, .f32⟩
  | .hbm, ⟨2, _⟩ => ⟨S1, .f32⟩
  | .hbm, ⟨3, _⟩ => ⟨S512x512, .f32⟩
  | .hbm, ⟨4, _⟩ => ⟨S32768x512, .f32⟩
  | .hbm, ⟨5, _⟩ => ⟨S512x512, .f32⟩
  | .hbm, ⟨6, _⟩ => ⟨S16x128, .f32⟩
  | .hbm, ⟨7, _⟩ => ⟨S32768x1, .f32⟩
  | .hbm, ⟨8, _⟩ => ⟨S_, .f32⟩
  | .hbm, ⟨9, _⟩ => ⟨S_, .f32⟩
  | .hbm, ⟨10, _⟩ => ⟨S1x1, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S8x128, .f32⟩
  | .local _ .vmem, ⟨6, _⟩ => ⟨S8x128, .f32⟩
  | .local _ .vmem, ⟨7, _⟩ => ⟨S1024x1, .f32⟩
  | .local _ .vmem, ⟨8, _⟩ => ⟨S1024x1, .f32⟩
  | _, _ => ⟨S256x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S256x128x512_S32768x512 : S256x128x512.ShapeCasts S32768x512
  inb_S8x128_S8x128_0_0 : ∀ a, (![0, 0] : Fin 2 → Nat) a + S8x128.size a ≤ S8x128.size a
  h_S8x128 : 0 < S8x128.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x1_S1024x1_0_0 : ∀ a, (![0, 0] : Fin 2 → Nat) a + S1024x1.size a ≤ S1024x1.size a
  h_S1024x1 : 0 < S1024x1.numel
  reducesTo_S16x128_S_d0_1 : S16x128.ReducesTo [0, 1] S_
  h_S_ : 0 < S_.numel
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S32768x1.size a
  hwx0_5 : ∀ i : grid0.Coords, EltTy.bits .f32 = 32 ∨ (Rect.block (s := S32768x1) S1024x1.size (cc0_transform_5 i) (hinb0_5 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S256x128x512 : Shape := ⟨3, ![256, 128, 512]⟩
abbrev S1x512 : Shape := ⟨2, ![1, 512]⟩
abbrev S1 : Shape := ⟨1, ![1]⟩
abbrev S512x512 : Shape := ⟨2, ![512, 512]⟩
abbrev S256x128x1 : Shape := ⟨3, ![256, 128, 1]⟩
abbrev S1x1x1 : Shape := ⟨3, ![1, 1, 1]⟩
abbrev S_ : Shape := ⟨0, ![]⟩
abbrev S32768x1 : Shape := ⟨2, ![32768, 1]⟩

abbrev nBuf : Space → Nat
  | .hbm => 22
  | .vmem => 0
  | .smem => 0
  | _ => 0

abbrev bufTy : (tb : Table) → Fin (tcTables nBuf tb) → BufTy
  | .hbm, ⟨0, _⟩ => ⟨S256x128x512, .f32⟩
  | .hbm, ⟨1, _⟩ => ⟨S1x512, .f32⟩
  | .hbm, ⟨2, _⟩ => ⟨S1, .f32⟩
  | .hbm, ⟨3, _⟩ => ⟨S512x512, .f32⟩
  | .hbm, ⟨4, _⟩ => ⟨S256x128x1, .f32⟩
  | .hbm, ⟨5, _⟩ => ⟨S1x1x1, .f32⟩
  | .hbm, ⟨6, _⟩ => ⟨S256x128x1, .f32⟩
  | .hbm, ⟨7, _⟩ => ⟨S256x128x1, .f32⟩
  | .hbm, ⟨8, _⟩ => ⟨S256x128x512, .f32⟩
  | .hbm, ⟨9, _⟩ => ⟨S256x128x512, .f32⟩
  | .hbm, ⟨10, _⟩ => ⟨S512x512, .f32⟩
  | .hbm, ⟨11, _⟩ => ⟨S256x128x512, .f32⟩
  | .hbm, ⟨12, _⟩ => ⟨S_, .f32⟩
  | .hbm, ⟨13, _⟩ => ⟨S256x128x512, .f32⟩
  | .hbm, ⟨14, _⟩ => ⟨S256x128x512, .f32⟩
  | .hbm, ⟨15, _⟩ => ⟨S256x128x512, .f32⟩
  | .hbm, ⟨16, _⟩ => ⟨S256x128x512, .f32⟩
  | .hbm, ⟨17, _⟩ => ⟨S_, .f32⟩
  | .hbm, ⟨18, _⟩ => ⟨S_, .f32⟩
  | .hbm, ⟨19, _⟩ => ⟨S256x128x1, .f32⟩
  | .hbm, ⟨20, _⟩ => ⟨S256x128x1, .f32⟩
  | .hbm, ⟨21, _⟩ => ⟨S32768x1, .f32⟩
  | _, _ => ⟨S256x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S1_S1x1x1_2 : S1.BroadcastsInDim S1x1x1 (![2] : Fin 1 → Fin S1x1x1.rank)
  bcast_S1x1x1_S256x128x1_0_1_2 : S1x1x1.BroadcastsInDim S256x128x1 (![0, 1, 2] : Fin 3 → Fin S256x128x1.rank)
  bcast_S_S256x128x512 : S_.BroadcastsInDim S256x128x512 (![] : Fin 0 → Fin S256x128x512.rank)
  reducesTo_S256x128x512_S_d0_1_2 : S256x128x512.ReducesTo [0, 1, 2] S_
  h_S_ : 0 < S_.numel
  bcast_S_S256x128x1 : S_.BroadcastsInDim S256x128x1 (![] : Fin 0 → Fin S256x128x1.rank)
  shapeCasts_S256x128x1_S32768x1 : S256x128x1.ShapeCasts S32768x1
  dot_S256x128x512_S1x512_S256x128x1_2_1_01_0_n_n_wf : DotDims.WF S256x128x512 S1x512 S256x128x1 [2] [1] [0, 1] [0] [] []
  dot_S256x128x512_S512x512_S256x128x512_2_0_01_1_n_n_wf : DotDims.WF S256x128x512 S512x512 S256x128x512 [2] [0] [0, 1] [1] [] []

variable [Facts₀]

def dot_S256x128x512_S1x512_S256x128x1_2_1_01_0_n_n : DotDims S256x128x512 S1x512 S256x128x1 where
  lhsContracting := [2]
  rhsContracting := [1]
  lhsNonContracting := [0, 1]
  rhsNonContracting := [0]
  lhsBatch := []
  rhsBatch := []
  wf := dot_S256x128x512_S1x512_S256x128x1_2_1_01_0_n_n_wf
def dot_S256x128x512_S512x512_S256x128x512_2_0_01_1_n_n : DotDims S256x128x512 S512x512 S256x128x512 where
  lhsContracting := [2]
  rhsContracting := [0]
  lhsNonContracting := [0, 1]
  rhsNonContracting := [1]
  lhsBatch := []
  rhsBatch := []
  wf := dot_S256x128x512_S512x512_S256x128x512_2_0_01_1_n_n_wf

class Facts : Prop extends Facts₀ where

variable [Facts]
-- ==== Proof.Cases.lean ====
/-
  What one grid point leaves in the two output blocks, at any float instance.

  The body runs in one of two ways.  At the first tile of a core (reduction index 0) it fills the core's 8×128
  accumulator block with zeros, reads the zero at the corner (0,0) back, and stores "that zero plus this tile's
  block sum" at the corner.  At every later tile it only reads the corner and stores "corner plus this tile's block
  sum" there, leaving the other 1023 entries of the block as the tile before left them.  In both ways the 1024×1
  block of row sums x·W is stored whole.  So, writing s for the tile's block sum as the body computes it from the
  corner value it read:
    first tile :  entry (0,0) = s(zero block's corner),  every other entry = 0,
    later tile :  entry (0,0) = s(carried corner),       every other entry = the carried entry,
    both       :  the linear block = the row sums of x·W.
-/
import proofs.«102572_j81664508166721_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Bridge

open Cert.KernelIdeal Cert.KernelIdeal.Gen

variable {F : FTy → Type} [FloatOps F]

theorem hz : (![0, 0] : Fin 2 → Nat) = fun _ => 0 := funext fun a => by fin_cases a <;> rfl

/-- The one-entry rectangle at the corner (0,0) of the 8×128 accumulator block. -/
abbrev corner : Rect S8x128 := Rect.unit (s := S8x128) ![0, 0] S1x1.size inb_S8x128_S1x1_0_0

/-- Its one entry is the block's entry (0,0). -/
theorem corner_emb (x : corner.shape.Idx) : corner.emb x = ix2 (0 : Fin 8) (0 : Fin 128) := by
  funext a
  apply Fin.ext
  rw [Rect.emb_apply]
  match a with
  | ⟨0, _⟩ => have h : ((x 0 : Fin 1) : Nat) < 1 := (x 0).isLt
              show 0 + 1 * ((x 0 : Fin 1) : Nat) = 0
              omega
  | ⟨1, _⟩ => have h : ((x 1 : Fin 1) : Nat) < 1 := (x 1).isLt
              show 0 + 1 * ((x 1 : Fin 1) : Nat) = 0
              omega

/-- Every other entry of the block lies outside it. -/
theorem not_mem_corner {y : S8x128.Idx} (h : y ≠ ix2 (0 : Fin 8) (0 : Fin 128)) : y ∉ corner.set := by
  intro hm
  rw [Rect.mem_set_unit] at hm
  apply h
  have h0 : ((y 0 : Fin 8) : Nat) < 0 + 1 := (hm 0).2
  have h1 : ((y 1 : Fin 128) : Nat) < 0 + 1 := (hm 1).2
  funext a
  apply Fin.ext
  match a with
  | ⟨0, _⟩ => show ((y 0 : Fin 8) : Nat) = 0; omega
  | ⟨1, _⟩ => show ((y 1 : Fin 128) : Nat) = 0; omega

section Point

variable (c : Dev nD) (i : grid0.Coords)
  (arg2 : Memref sig .tc .vmem S1024x512 .f32) (harg2 : arg2.IsWhole)
  (arg3 : Memref sig .tc .vmem S512x512 .f32) (harg3 : arg3.IsWhole)
  (arg4 : Memref sig .tc .vmem S512x512 .f32) (harg4 : arg4.IsWhole)
  (arg5 : Memref sig .tc .vmem S1x512 .f32) (harg5 : arg5.IsWhole)
  (arg6 : Memref sig .tc .vmem S8x128 .f32) (harg6 : arg6.IsWhole)
  (arg7 : Memref sig .tc .vmem S1024x1 .f32) (harg7 : arg7.IsWhole)
  (x0 : Vec F S1024x512 .f32) (x1 x2 : Vec F S512x512 .f32) (x3 : Vec F S1x512 .f32)

/-- First tile of a core: the linear block is the row sums of x·W. -/
theorem lin_first (hc0 : cond0_0 i) :
    out0_A_5 c i arg2 harg2 arg3 harg3 arg4 harg4 arg5 harg5 arg6 harg6 arg7 harg7 hc0 x0 x1 x2 x3 = k0_pay4 x0 x3 := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_unit_zero hz]
  simp only [View.readAt_eq_ld, harg2.read_unread, harg5.read_unread, View.ld_unit_zero (S := S1024x512) hz,
    View.ld_unit_zero (S := S1x512) hz]

/-- Later tile: the same. -/
theorem lin_later (hc0 : ¬cond0_0 i) (xo4 : Vec F S8x128 .f32) :
    out0_B_5 c i arg2 harg2 arg3 harg3 arg4 harg4 arg5 harg5 arg6 harg6 arg7 harg7 hc0 x0 x1 x2 x3 xo4 = k0_pay4 x0 x3 := by
  unfold out0_B_5
  rw [View.read_writes_eq_canon _ _ _ (cover0_B_5 c i arg2 harg2 arg3 harg3 arg4 harg4 arg5 harg5 arg6 harg6 arg7 harg7 hc0 x0 x1 x2 x3 xo4)]
  unfold kernelRun0_B
  dsimp only
  sl_unfold_words
  rw [View.canon_unit_zero hz]
  simp only [View.readAt_eq_ld, harg2.read_unread, harg5.read_unread, View.ld_unit_zero (S := S1024x512) hz,
    View.ld_unit_zero (S := S1x512) hz]

/-- First tile: the accumulator block as its two stores, last first — the corner store over the zero fill. -/
theorem acc_first_stores (hc0 : cond0_0 i) :
    out0_A_4 c i arg2 harg2 arg3 harg3 arg4 harg4 arg5 harg5 arg6 harg6 arg7 harg7 hc0 x0 x1 x2 x3
      = View.canon [(⟨corner, k0_pay3 x0 x1 x2 (View.ld (k0_pay1 (F := F)) corner)⟩ : View.Piece (Elt F) S8x128 .f32),
          ⟨Rect.unit (s := S8x128) ![0, 0] S8x128.size inb_S8x128_S8x128_0_0, k0_pay1⟩] := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.readCov_eq_canon_ld _ _ _ (fun y => ⟨_, List.mem_singleton_self _, View.mem_set_unit_zero hz inb_S8x128_S8x128_0_0 y⟩),
    View.canon_unit_zero hz]
  simp only [View.readAt_eq_ld, harg2.read_unread, harg3.read_unread, harg4.read_unread,
    View.ld_unit_zero (S := S1024x512) hz, View.ld_unit_zero (S := S512x512) hz]

/-- Later tile: the accumulator block as its one store at the corner over the carried block. -/
theorem acc_later_stores (hc0 : ¬cond0_0 i) (xo4 : Vec F S8x128 .f32) :
    out0_B_4 c i arg2 harg2 arg3 harg3 arg4 harg4 arg5 harg5 arg6 harg6 arg7 harg7 hc0 x0 x1 x2 x3 xo4
      = arg6.view.read (Elt F) (arg6.view.writes (Elt F) (harg6.unread xo4)
          [(⟨corner, k0_pay3 x0 x1 x2 (View.ld xo4 corner)⟩ : View.Piece (Elt F) S8x128 .f32)]) := by
  unfold out0_B_4
  unfold kernelRun0_B
  dsimp only
  sl_unfold_words
  simp only [View.readAt_eq_ld, harg2.read_unread, harg3.read_unread, harg4.read_unread, harg6.read_unread,
    View.ld_unit_zero (S := S1024x512) hz, View.ld_unit_zero (S := S512x512) hz]

/-- First tile, corner: the block sum added to the zero read back. -/
theorem acc_first_corner (hc0 : cond0_0 i) :
    out0_A_4 c i arg2 harg2 arg3 harg3 arg4 harg4 arg5 harg5 arg6 harg6 arg7 harg7 hc0 x0 x1 x2 x3 (ix2 (0 : Fin 8) (0 : Fin 128))
      = k0_pay3 x0 x1 x2 (View.ld (k0_pay1 (F := F)) corner) (ix2 (0 : Fin 1) (0 : Fin 1)) := by
  rw [acc_first_stores]
  have e := View.canon_cons_emb (Val := Elt F) corner (k0_pay3 x0 x1 x2 (View.ld (k0_pay1 (F := F)) corner))
    [(⟨Rect.unit (s := S8x128) ![0, 0] S8x128.size inb_S8x128_S8x128_0_0, k0_pay1 (F := F)⟩ : View.Piece (Elt F) S8x128 .f32)]
    (ix2 (0 : Fin 1) (0 : Fin 1))
  rw [corner_emb] at e
  exact e

/-- First tile, any other entry: zero. -/
theorem acc_first_rest (hc0 : cond0_0 i) (y : S8x128.Idx) (hy : y ≠ ix2 (0 : Fin 8) (0 : Fin 128)) :
    out0_A_4 c i arg2 harg2 arg3 harg3 arg4 harg4 arg5 harg5 arg6 harg6 arg7 harg7 hc0 x0 x1 x2 x3 y = k0_pay1 (F := F) y := by
  have hp := View.canon_cons_of_not_mem (Val := Elt F)
    (⟨corner, k0_pay3 x0 x1 x2 (View.ld (k0_pay1 (F := F)) corner)⟩ : View.Piece (Elt F) S8x128 .f32)
    [(⟨Rect.unit (s := S8x128) ![0, 0] S8x128.size inb_S8x128_S8x128_0_0, k0_pay1 (F := F)⟩ : View.Piece (Elt F) S8x128 .f32)]
    (not_mem_corner hy)
  rw [acc_first_stores]
  exact hp.trans (congrFun (View.canon_unit_zero (Val := Elt F) (S := S8x128) (e := .f32) hz inb_S8x128_S8x128_0_0 (k0_pay1 (F := F))) y)

/-- Later tile, corner: the block sum added to the carried corner. -/
theorem acc_later_corner (hc0 : ¬cond0_0 i) (xo4 : Vec F S8x128 .f32) :
    out0_B_4 c i arg2 harg2 arg3 harg3 arg4 harg4 arg5 harg5 arg6 harg6 arg7 harg7 hc0 x0 x1 x2 x3 xo4 (ix2 (0 : Fin 8) (0 : Fin 128))
      = k0_pay3 x0 x1 x2 (View.ld xo4 corner) (ix2 (0 : Fin 1) (0 : Fin 1)) := by
  rw [acc_later_stores]
  have e := View.read_writes_cons_emb arg6.view (harg6.unread xo4) corner (k0_pay3 x0 x1 x2 (View.ld xo4 corner)) []
    (ix2 (0 : Fin 1) (0 : Fin 1))
  rw [corner_emb] at e
  exact e

/-- Later tile, any other entry: carried over. -/
theorem acc_later_rest (hc0 : ¬cond0_0 i) (xo4 : Vec F S8x128 .f32) (y : S8x128.Idx) (hy : y ≠ ix2 (0 : Fin 8) (0 : Fin 128)) :
    out0_B_4 c i arg2 harg2 arg3 harg3 arg4 harg4 arg5 harg5 arg6 harg6 arg7 harg7 hc0 x0 x1 x2 x3 xo4 y = xo4 y := by
  rw [acc_later_stores, View.writes_cons, View.read_slice_write_of_not_mem corner _ _ _ (by rw [Rect.map_emb_univ]; exact not_mem_corner hy),
    View.writes_nil, harg6.read_unread]

end Point

end Cert.KernelIdeal.Bridge

end
-- ==== Proof.Payload.lean ====
/-
  The body's arithmetic at one index, on the extended reals.

  For a tile x (1024 rows of 512), the matrices V and V∘V (512×512) and the row W (1×512):
    * entry p of the linear block is  Σ_d x[p,d]·W[0,d];
    * the value stored at the accumulator's corner is the corner value read, plus the tile's block sum
        Σ_p Σ_e ( ½·Σ_d (x[p,d]·x[p,d])·V2[d,e]  −  (Σ_d x[p,d]·V[d,e])·(Σ_d x[p,d]·V[d,e]) ).
  The two matrix products accumulate into zero, so each is the plain sum over the contracted coordinate; a change
  of float format is the identity on extended reals; the lane sums and the sum down the rows start from the
  neutral element, so each is the plain sum over its axis.
-/
import proofs.«102572_j81664508166721_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Bridge

open Cert.KernelIdeal Cert.KernelIdeal.Gen

/-- A vector of `a` entries cast to an a×1 column, read at row `i`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The matrix product's left operand is read at (row, contracted coordinate) … -/
theorem lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide),
    dif_pos (show (0 : Fin S1024x512.rank) ∈ dot_S1024x512_S512x512_S1024x512_1_0_0_1_n_n.lhsNonContracting by decide)]
  rfl
/-- … and its right operand at (contracted coordinate, column). -/
theorem rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide),
    dif_pos (show (1 : Fin S512x512.rank) ∈ dot_S1024x512_S512x512_S1024x512_1_0_0_1_n_n.rhsNonContracting by decide)]
  rfl

/-- A 1024×512 by 512×512 product into a zero accumulator, at (p, e): the sum over the contracted coordinate. -/
theorem product_apply {φ₁ φ₂ : FTy} (l : FVec Ideal S1024x512 φ₁) (r : FVec Ideal S512x512 φ₂) (p : Fin 1024) (e : Fin 512) :
    matmul dot_S1024x512_S512x512_S1024x512_1_0_0_1_n_n none l r (constant S1024x512 .f32 0x00000000#32) (ix2 p e)
      = ∑ d : Fin 512, l (ix2 p d) * r (ix2 d e) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p e) ((contrEquiv1 dot_S1024x512_S512x512_S1024x512_1_0_0_1_n_n 512 rfl rfl).symm k) = ix2 p k := funext fun a => Fin.ext (by
    match a with
    | ⟨0, _⟩ => exact lhs_row _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 p e) ((contrEquiv1 dot_S1024x512_S512x512_S1024x512_1_0_0_1_n_n 512 rfl rfl).symm k) = ix2 k e := funext fun a => Fin.ext (by
    match a with
    | ⟨0, _⟩ => exact (dot_S1024x512_S512x512_S1024x512_1_0_0_1_n_n.rhsIdx_val_of_single rfl _ _).trans hk
    | ⟨1, _⟩ => exact rhs_col _ _)
  rw [el, er]

/-- Summing a 1024×512 array along its lanes inserts the lane coordinate second. -/
theorem lane_lift (p : Fin 1024) (d : Fin 512) : reduces_S1024x512_S1024.lift (ix1 p) d = ix2 p d :=
  funext fun a => Fin.ext (by match a with | ⟨0, _⟩ => rfl | ⟨1, _⟩ => rfl)

/-- Summing a 1024×1 column down its rows inserts the row coordinate first. -/
theorem row_lift (u : Fin 1) (p : Fin 1024) : reduces_S1024x1_S1.lift (ix1 u) p = ix2 p u :=
  funext fun a => Fin.ext (by match a with | ⟨0, _⟩ => rfl | ⟨1, _⟩ => rfl)

/-- THE LINEAR BLOCK at row `p`: Σ_d x[p,d]·W[0,d]. -/
theorem lin_apply (x0 : Vec Ideal S1024x512 .f32) (x3 : Vec Ideal S1x512 .f32) (p : Fin 1024) (u : Fin 1) :
    k0_pay4 (F := Ideal) x0 x3 (ix2 p u) = ∑ d : Fin 512, x0 (ix2 p d) * x3 (ix2 (0 : Fin 1) d) := by
  unfold k0_pay4 k0_pay2
  refine (shapeCast_column_apply _ _ p u).trans ?_
  refine (Ideal.multiReduction_add_single _ _ reduces_S1024x512_S1024 _ _ (ix1 p)).trans ?_
  refine Finset.sum_congr rfl fun (d : Fin 512) _ => ?_
  refine (congrArg _ (lane_lift p d)).trans ?_
  show shapeCast S1024x512 x0 shapeCasts_S1024x512_S1024x512 (ix2 p d)
      * broadcastTo S1024x512 (shapeCast S1x512 x3 shapeCasts_S1x512_S1x512) broadcasts_S1x512_S1024x512 (ix2 p d) = _
  rw [shapeCast_self, shapeCast_self, broadcastTo_1b_ab_apply]

/-- One tile's contribution to the interaction sum. -/
def tileSum (x0 : Vec Ideal S1024x512 .f32) (x1 x2 : Vec Ideal S512x512 .f32) : EReal :=
  ∑ p : Fin 1024, ∑ e : Fin 512,
    (Ideal.ofBits .f32 0x3F000000#32 * (∑ d : Fin 512, (x0 (ix2 p d) * x0 (ix2 p d)) * x2 (ix2 d e))
      - (∑ d : Fin 512, x0 (ix2 p d) * x1 (ix2 d e)) * (∑ d : Fin 512, x0 (ix2 p d) * x1 (ix2 d e)))

/-- THE CORNER STORE: the corner value read, plus the tile's contribution. -/
theorem corner_apply (x0 : Vec Ideal S1024x512 .f32) (x1 x2 : Vec Ideal S512x512 .f32) (v23 : Vec Ideal S1x1 .f32) (u u' : Fin 1) :
    k0_pay3 (F := Ideal) x0 x1 x2 v23 (ix2 u u') = v23 (ix2 u u') + tileSum x0 x1 x2 := by
  unfold k0_pay3 k0_pay2 tileSum
  refine congrArg₂ (· + ·) (congrFun (shapeCast_self _ _) _) ?_
  refine (shapeCast_column_apply _ _ u u').trans ?_
  refine (Ideal.multiReduction_add_single _ _ reduces_S1024x1_S1 _ _ (ix1 u)).trans ?_
  refine Finset.sum_congr rfl fun (p : Fin 1024) _ => ?_
  refine (congrArg _ (row_lift u p)).trans ?_
  refine (shapeCast_column_apply _ _ p u).trans ?_
  refine (Ideal.multiReduction_add_single _ _ reduces_S1024x512_S1024 _ _ (ix1 p)).trans ?_
  refine Finset.sum_congr rfl fun (e : Fin 512) _ => ?_
  refine (congrArg _ (lane_lift p e)).trans ?_
  refine congrArg₂ (· - ·) (congrArg (Ideal.ofBits .f32 0x3F000000#32 * ·) ?_) (congrArg₂ (· * ·) ?_ ?_)
  · refine (product_apply _ _ p e).trans (Finset.sum_congr rfl fun d _ => ?_)
    simp only [shapeCast_self] <;> rfl
  · refine (product_apply _ _ p e).trans (Finset.sum_congr rfl fun d _ => ?_)
    simp only [shapeCast_self] <;> rfl
  · refine (product_apply _ _ p e).trans (Finset.sum_congr rfl fun d _ => ?_)
    simp only [shapeCast_self] <;> rfl

end Cert.KernelIdeal.Bridge

end
-- ==== Proof.Accumulate.lean ====
/-
  The accumulator block after every grid point, on the extended reals.

  Write s(n) for the block sum of the tile the body sees at point n.  At the first tile of a core (n a multiple of
  16) the accumulator block is reset: its corner holds 0 + s(n), every other entry 0.  At every other point the
  corner gains s(n) and the other entries are carried over unchanged.  So after point n the corner holds
      0 + ( s(16·⌊n/16⌋) + … + s(n) )
  and every other entry holds 0 + (0 + … + 0): in one formula, entry y holds 0 + Σ_{k ≤ n mod 16} a(16·⌊n/16⌋ + k, y),
  where a(n, y) is s(n) at the corner and 0 elsewhere.  This is a fold with a reset at the multiples of 16, stated
  once for all points by induction along a run (never by listing the 32 points).
  The linear block after point n is the row sums of the point's own tile, whichever way the body ran.
-/
import proofs.«102572_j81664508166721_2_alg».proof.Proof.Cases
import proofs.«102572_j81664508166721_2_alg».proof.Proof.Payload

set_option maxRecDepth 16384

noncomputable section

open Idealize.ShloMosaic Idealize.ShloMosaic.TcCoe Idealize.SL.Sem
open Idealize.ShloMosaic.ValueIdx

namespace Cert.KernelIdeal.Bridge

open Cert.KernelIdeal Cert.KernelIdeal.Gen

variable (m : (ℓ : Loc nD τ sig) → Buf (Elt Ideal) ℓ)

/-- The block sum of the tile at point `n` (zero past the grid, where it is never used). -/
def tileAt (c : Dev nD) (n : ℕ) : EReal :=
  if h : n < cfg0.N then tileSum (iblk m c 0 ⟨n, h⟩) (iblk m c 1 ⟨n, h⟩) (iblk m c 2 ⟨n, h⟩) else 0

/-- What point `n` adds to entry `y` of the accumulator block: its block sum at the corner, nothing elsewhere. -/
def addend (c : Dev nD) (n : ℕ) (y : S8x128.Idx) : EReal :=
  if (y 0).val = 0 ∧ (y 1).val = 0 then tileAt m c n else 0

theorem addend_corner (c : Dev nD) (n : ℕ) : addend m c n (ix2 (0 : Fin 8) (0 : Fin 128)) = tileAt m c n :=
  if_pos ⟨rfl, rfl⟩

theorem addend_rest (c : Dev nD) (n : ℕ) (y : S8x128.Idx) (hy : y ≠ ix2 (0 : Fin 8) (0 : Fin 128)) : addend m c n y = 0 :=
  if_neg fun ⟨h0, h1⟩ => hy (by
    funext a
    apply Fin.ext
    match a with
    | ⟨0, _⟩ => exact h0
    | ⟨1, _⟩ => exact h1)

/-- RESET: at the first tile of a core, entry `y` holds 0 + a(t, y). -/
theorem reset_at (c : Dev nD) (t : Fin cfg0.N) (h0 : t.val % 16 = 0) (y : S8x128.Idx) :
    (outsAt0 m c t.val t.isLt).1 y = 0 + addend m c t.val y := by
  have key : (outsAt0 m c t.val t.isLt).1
      = out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t) (iblk m c 3 t) :=
    congrArg Prod.fst (outsAt0_A m c t h0)
  refine (congrFun key y).trans ?_
  by_cases hy : y = ix2 (0 : Fin 8) (0 : Fin 128)
  · subst hy
    refine (acc_first_corner (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h0)).trans ?_
    refine (corner_apply (iblk m c 0 t) (iblk m c 1 t) (iblk m c 2 t) _ 0 0).trans ?_
    rw [addend_corner]
    show Ideal.ofBits .f32 0x00000000#32 + tileSum (iblk m c 0 t) (iblk m c 1 t) (iblk m c 2 t) = 0 + tileAt m c t.val
    rw [Ideal.ofBits_zero_f32]
    unfold tileAt
    rw [dif_pos t.isLt]
  · refine (acc_first_rest (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h0) y hy).trans ?_
    rw [addend_rest m c _ y hy, add_zero]
    show Ideal.ofBits .f32 0x00000000#32 = 0
    exact Ideal.ofBits_zero_f32

/-- STEP: at any other point, entry `y` gains a(n + 1, y). -/
theorem step_at (c : Dev nD) (n : ℕ) (h : n + 1 < cfg0.N) (hne : ¬(n + 1) % 16 = 0) (y : S8x128.Idx) :
    (outsAt0 m c (n + 1) h).1 y = (outsAt0 m c n (Nat.lt_of_succ_lt h)).1 y + addend m c (n + 1) y := by
  have key : (outsAt0 m c (n + 1) h).1
      = out0_B_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (fun hh => hne ((hcond0_0 ⟨n + 1, h⟩).mp hh)) (iblk m c 0 ⟨n + 1, h⟩) (iblk m c 1 ⟨n + 1, h⟩) (iblk m c 2 ⟨n + 1, h⟩) (iblk m c 3 ⟨n + 1, h⟩)
          (outsAt0 m c n (Nat.lt_of_succ_lt h)).1 :=
    congrArg Prod.fst (outsAt0_B m c ⟨n + 1, h⟩ hne)
  refine (congrFun key y).trans ?_
  by_cases hy : y = ix2 (0 : Fin 8) (0 : Fin 128)
  · subst hy
    refine (acc_later_corner (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (iblk m c 0 ⟨n + 1, h⟩) (iblk m c 1 ⟨n + 1, h⟩) (iblk m c 2 ⟨n + 1, h⟩) (iblk m c 3 ⟨n + 1, h⟩) (fun hh => hne ((hcond0_0 ⟨n + 1, h⟩).mp hh))
      (outsAt0 m c n (Nat.lt_of_succ_lt h)).1).trans ?_
    refine (corner_apply (iblk m c 0 ⟨n + 1, h⟩) (iblk m c 1 ⟨n + 1, h⟩) (iblk m c 2 ⟨n + 1, h⟩) _ 0 0).trans ?_
    rw [addend_corner]
    show (outsAt0 m c n (Nat.lt_of_succ_lt h)).1 (corner.emb (ix2 (0 : Fin 1) (0 : Fin 1)))
        + tileSum (iblk m c 0 ⟨n + 1, h⟩) (iblk m c 1 ⟨n + 1, h⟩) (iblk m c 2 ⟨n + 1, h⟩) = _ + tileAt m c (n + 1)
    rw [corner_emb]
    unfold tileAt
    rw [dif_pos h]
  · refine (acc_later_rest (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (iblk m c 0 ⟨n + 1, h⟩) (iblk m c 1 ⟨n + 1, h⟩) (iblk m c 2 ⟨n + 1, h⟩) (iblk m c 3 ⟨n + 1, h⟩) (fun hh => hne ((hcond0_0 ⟨n + 1, h⟩).mp hh))
      (outsAt0 m c n (Nat.lt_of_succ_lt h)).1 y hy).trans ?_
    rw [addend_rest m c _ y hy, add_zero]

/-- THE FOLD: after point `t`, entry `y` holds 0 plus what the points of `t`'s run up to `t` added. -/
theorem acc_fold (c : Dev nD) (t : Fin cfg0.N) (y : S8x128.Idx) :
    (outsAt0 m c t.val t.isLt).1 y
      = 0 + ∑ s ∈ Finset.range (t.val % 16 + 1), addend m c (16 * (t.val / 16) + s) y := by
  have hN : cfg0.N = 32 := N_0
  have h' : 16 * (t.val / 16) + t.val % 16 < cfg0.N := by have := t.isLt; omega
  have e := Pipeline.eq_accAt_of_mod (N := cfg0.N) (α := S8x128.Idx → EReal)
    (fun n h => (outsAt0 m c n h).1) 16
    (fun n _ y => 0 + addend m c n y) (fun n _ acc y => acc y + addend m c n y)
    (fun n h h0 => funext fun y => reset_at m c ⟨n, h⟩ h0 y)
    (fun n h hne => funext fun y => step_at m c n h hne y)
    (by norm_num) t.val t.isLt h'
  refine (congrFun e y).trans ?_
  exact Pipeline.accAt_add_apply (N := cfg0.N) (ι := S8x128.Idx) (β := EReal) _ _ (fun _ => 0) (addend m c) (16 * (t.val / 16)) 15
    (fun _ _ => rfl) (fun _ _ _ _ _ _ => rfl) (t.val % 16) (by omega) h' y

/-- The linear block after point `t`: the row sums of the point's tile against W. -/
theorem lin_at (c : Dev nD) (t : Fin cfg0.N) :
    (outsAt0 m c t.val t.isLt).2 = k0_pay4 (iblk m c 0 t) (iblk m c 3 t) := by
  by_cases h0 : t.val % 16 = 0
  · rw [outsAt0_A m c t h0]
    dsimp only
    exact lin_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h0)
  · rw [outsAt0_B m c t h0]
    dsimp only
    exact lin_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (fun hh => h0 ((hcond0_0 t).mp hh))
      (outsAt0 m c (t.val - 1) (Nat.lt_of_le_of_lt (Nat.sub_le _ _) t.isLt)).1

end Cert.KernelIdeal.Bridge

end
-- ==== Proof.Blocks.lean ====
/-
  The input blocks, read from the arrays.

  At grid point t = 16·core + tile the body's four input blocks are: rows 1024·t … 1024·t + 1023 of the
  32768×512 array X (x with its two leading axes merged, made by a reshape before the kernel is launched); the
  whole of V; the whole of V∘V (the elementwise square, computed before the launch); the whole row W.
  The block index of every window, at every one of the 32 points, is decided once.
-/
import proofs.«102572_j81664508166721_2_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Bridge

open Cert.KernelIdeal Cert.KernelIdeal.Gen

variable {F : FTy → Type} [FloatOps F]
variable (m : (ℓ : Loc nD τ sig) → Buf (Elt F) ℓ)

/-- The block indices at point `t`: the x tile and the linear block move with `t`, the accumulator block with the
    core `t / 16`, and V, V∘V and W are each one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 16 ∧ win0_4.index t (1 : Fin 2) = 0
    ∧ win0_5.index t (0 : Fin 2) = t.val ∧ win0_5.index t (1 : Fin 2) = 0 :=
  (by decide +kernel : ∀ t : Fin grid0.N, _)

/-- Row `p` of the x tile at point `t` is row `1024·t + p` of X. -/
theorem x_block (c : Dev nD) (t : Fin cfg0.N) (p : Fin 1024) (d : Fin 512) (r : Fin 32768) (hr : r.val = t.val * 1024 + p.val) :
    (iblk m c 0 t : Vec F S1024x512 .f32) (ix2 p d) = V m c main_v0 (ix2 r d) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * d.val = d.val; rw [e1]; omega

/-- The V block is V. -/
theorem v_block (c : Dev nD) (t : Fin cfg0.N) (d e : Fin 512) :
    (iblk m c 1 t : Vec F S512x512 .f32) (ix2 d e) = V m c main_arg3 (ix2 d e) := by
  obtain ⟨-, -, e0, e1, -⟩ := idx_facts t
  unfold iblk
  rw [View.read_apply]
  show V m c main_arg3 _ = V m c main_arg3 _
  congr 1
  funext a
  apply Fin.ext
  match a with
  | ⟨0, _⟩ => show win0_1.index t (0 : Fin 2) * 512 + 1 * d.val = d.val; rw [e0]; omega
  | ⟨1, _⟩ => show win0_1.index t (1 : Fin 2) * 512 + 1 * e.val = e.val; rw [e1]; omega

/-- The V∘V block is V∘V. -/
theorem v2_block (c : Dev nD) (t : Fin cfg0.N) (d e : Fin 512) :
    (iblk m c 2 t : Vec F S512x512 .f32) (ix2 d e) = V m c main_v1 (ix2 d e) := by
  obtain ⟨-, -, -, -, e0, e1, -⟩ := idx_facts t
  unfold iblk
  rw [View.read_apply]
  show V m c main_v1 _ = V m c main_v1 _
  congr 1
  funext a
  apply Fin.ext
  match a with
  | ⟨0, _⟩ => show win0_2.index t (0 : Fin 2) * 512 + 1 * d.val = d.val; rw [e0]; omega
  | ⟨1, _⟩ => show win0_2.index t (1 : Fin 2) * 512 + 1 * e.val = e.val; rw [e1]; omega

/-- The W block is W. -/
theorem w_block (c : Dev nD) (t : Fin cfg0.N) (u : Fin 1) (d : Fin 512) :
    (iblk m c 3 t : Vec F S1x512 .f32) (ix2 u d) = V m c main_arg1 (ix2 u d) := by
  obtain ⟨-, -, -, -, -, -, e0, e1, -⟩ := idx_facts t
  unfold iblk
  rw [View.read_apply]
  show V m c main_arg1 _ = V m c main_arg1 _
  congr 1
  funext a
  apply Fin.ext
  match a with
  | ⟨0, _⟩ => show win0_3.index t (0 : Fin 2) * 1 + 1 * u.val = u.val; rw [e0]; omega
  | ⟨1, _⟩ => show win0_3.index t (1 : Fin 2) * 512 + 1 * d.val = d.val; rw [e1]; omega

/-- The region finds X as the reshape of x … -/
theorem entry_x (c : Dev nD) :
    (V m c main_v0 : S32768x512.Idx → Elt F .f32)
      = shapeCast S32768x512 (m ((c : Thread nD τ).loc main_arg0)) shapeCasts_S256x128x512_S32768x512 := by
  show StableHlo.after hostOps0 (fun b => m (c, b)) (Proc.devRef .tc main_v0) = _
  after_results <;> rfl

/-- … and V∘V as the elementwise square of V. -/
theorem entry_v2 (c : Dev nD) :
    (V m c main_v1 : S512x512.Idx → Elt F .f32)
      = mulf (m ((c : Thread nD τ).loc main_arg3)) (m ((c : Thread nD τ).loc main_arg3)) := by
  show StableHlo.after hostOps0 (fun b => m (c, b)) (Proc.devRef .tc main_v1) = _
  after_results <;> rfl

/-- The reshape at (r, d) reads x at (r / 128, r % 128, d): the same row-major position. -/
theorem merged_apply {α : Type} (x : S256x128x512.Idx → α) (r : Fin 32768) (d : Fin 512) :
    shapeCast S32768x512 x shapeCasts_S256x128x512_S32768x512 (ix2 r d)
      = x (ix3 (⟨r.val / 128, by have := r.isLt; omega⟩ : Fin 256) (⟨r.val % 128, by omega⟩ : Fin 128) d) :=
  shapeCast_apply x shapeCasts_S256x128x512_S32768x512 _ _ (by
    rw [Shape.rowMajor_val_three, Shape.rowMajor_val_two]
    show (r.val / 128 * 128 + r.val % 128) * 512 + d.val = r.val * 512 + d.val
    omega)

end Cert.KernelIdeal.Bridge

end
-- ==== Proof.Arrays.lean ====
/-
  The two output arrays after the run.

  The linear array (32768×1): point t writes its 1024×1 block back at rows 1024·t …, every point does, and those
  blocks tile the array; row r of what is written is Σ_d X[r,d]·W[0,d].  So the array ends holding that, row by row.

  The accumulator array (16×128): core q's 8×128 block is written back once, after the last tile of the core's run
  (point 16·q + 15), holding  0 + Σ_{k<16} s(16·q + k)  at its corner and zero elsewhere.  The two blocks tile the
  array, so entry (a, l) ends at the core's total when a is a multiple of 8 and l = 0, and at zero otherwise.
-/
import proofs.«102572_j81664508166721_2_alg».proof.Proof.Accumulate
import proofs.«102572_j81664508166721_2_alg».proof.Proof.Blocks

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ)

/-! ## The linear array -/

/-- Row `p` of a tile against the row W. -/
def dotRow (x0 : Vec Ideal S1024x512 .f32) (x3 : Vec Ideal S1x512 .f32) (p : Fin 1024) : EReal :=
  ∑ d : Fin 512, x0 (ix2 p d) * x3 (ix2 (0 : Fin 1) d)

/-- The body's linear block at any index of the block. -/
theorem lin_apply_idx (x0 : Vec Ideal S1024x512 .f32) (x3 : Vec Ideal S1x512 .f32) (i : S1024x1.Idx) :
    k0_pay4 (F := Ideal) x0 x3 i = dotRow x0 x3 ⟨(i 0).val, (i 0).isLt⟩ := by
  have e : i = ix2 (⟨(i 0).val, (i 0).isLt⟩ : Fin 1024) (⟨(i 1).val, (i 1).isLt⟩ : Fin 1) := by
    funext a
    apply Fin.ext
    match a with
    | ⟨0, _⟩ => rfl
    | ⟨1, _⟩ => rfl
  exact (congrArg (k0_pay4 (F := Ideal) x0 x3) e).trans (lin_apply x0 x3 _ _)

/-- Row `r` of X against the row W. -/
def linRowOf (X : FVec Ideal S32768x512 .f32) (W : FVec Ideal S1x512 .f32) (r : Fin 32768) : EReal :=
  ∑ d : Fin 512, X (ix2 r d) * W (ix2 (0 : Fin 1) d)

/-- Row `r` of the linear array: Σ_d X[r,d]·W[0,d], over the arrays as the region finds them. -/
def linRow (c : Dev nD) (r : Fin 32768) : EReal := linRowOf (V m c main_v0) (V m c main_arg1) r

/-- The linear array. -/
def linArr (c : Dev nD) : S32768x1.Idx → EReal := fun i => linRow m c ⟨(i 0).val, (i 0).isLt⟩

/-- Row `p` of point `t`'s block is row 1024·t + p of the array. -/
theorem lin_row_eq (c : Dev nD) (t : Fin cfg0.N) (p : Fin 1024) (r : Fin 32768) (hr : r.val = t.val * 1024 + p.val) :
    dotRow (iblk m c 0 t) (iblk m c 3 t) p = linRow m c r := by
  unfold dotRow linRow linRowOf
  refine Finset.sum_congr rfl fun d _ => ?_
  rw [x_block m c t p d r hr, w_block m c t 0 d]
  all_goals rfl

/-- What point `t` writes back is its block of the linear array. -/
theorem lin_flushed (c : Dev nD) (t : Fin cfg0.N) :
    (dats m 0 c).flushed 5 t = ((cfg0.win 5).blk t).view.read (Elt Ideal) (linArr m c) := by
  obtain ⟨-, -, -, -, -, -, -, -, -, -, e0, e1⟩ := idx_facts t
  show (cfg0.win 5).cut (grid0.coords t) ((dats m 0 c).after 5 t) = _
  rw [after0_5, lin_at]
  funext j
  have hj0 : (j 0).val < 1024 := (j 0).isLt
  have hr : (((cfg0.win 5).blk t).view.emb j 0).val = t.val * 1024 + (j 0).val := by
    show win0_5.index t (0 : Fin 2) * 1024 + 1 * (j 0).val = t.val * 1024 + (j 0).val
    rw [e0]; omega
  refine (lin_apply_idx (iblk m c 0 t) (iblk m c 3 t) ((cfg0.win 5).xinj (grid0.coords t) j)).trans ?_
  rw [View.read_apply]
  exact lin_row_eq m c t ⟨(j 0).val, hj0⟩ ⟨(((cfg0.win 5).blk t).view.emb j 0).val, (((cfg0.win 5).blk t).view.emb j 0).isLt⟩ hr

/-- An index of the linear array is in point `t`'s block iff each coordinate is in the block's range. -/
theorem mem_lin_blk (t : Fin cfg0.N) (i : S32768x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v2_1).slice (win0_5.rect t)).set ↔ _
  rw [View.set_slice_whole, Rect.mem_set_unit]
  exact Iff.rfl

/-- Row r lies in the block of point r / 1024, which is written back. -/
theorem lin_cover (i : S32768x1.Idx) :
    ∃ t : Fin cfg0.N, (cfg0.win 5).flush t = true ∧ i ∈ ((cfg0.win 5).blk t).view.set := by
  have hN : cfg0.N = 32 := N_0
  have hi0 : (i 0).val < 32768 := (i 0).isLt
  have hi1 : (i 1).val < 1 := (i 1).isLt
  obtain ⟨t, ht⟩ : ∃ t : Fin cfg0.N, t.val = (i 0).val / 1024 := ⟨⟨(i 0).val / 1024, by rw [hN]; omega⟩, rfl⟩
  obtain ⟨-, -, -, -, -, -, -, -, -, -, e0, e1⟩ := idx_facts t
  refine ⟨t, flush0_5 t, ?_⟩
  rw [mem_lin_blk]
  intro a
  match a with
  | ⟨0, _⟩ => show win0_5.index t (0 : Fin 2) * 1024 ≤ (i 0).val ∧ (i 0).val < win0_5.index t (0 : Fin 2) * 1024 + 1024
              rw [e0, ht]; omega
  | ⟨1, _⟩ => show win0_5.index t (1 : Fin 2) * 1 ≤ (i 1).val ∧ (i 1).val < win0_5.index t (1 : Fin 2) * 1 + 1
              rw [e1]; omega

/-- THE LINEAR ARRAY after the run. -/
theorem lin_final (c : Dev nD) : (dats m 0 c).arrAt 5 cfg0.N = linArr m c :=
  (dats m 0 c).arrAt_eq_of_cover 5 (linArr m c) (fun t _ => lin_flushed m c t) (fun i => lin_cover i)

/-! ## The accumulator array -/

/-- Core `q`'s total: zero plus the block sums of its sixteen tiles, in order. -/
def coreSum (c : Dev nD) (q : ℕ) : EReal := 0 + ∑ s ∈ Finset.range 16, tileAt m c (16 * q + s)

/-- The accumulator array: a core's total at its block's corner, zero elsewhere. -/
def accArr (c : Dev nD) : S16x128.Idx → EReal := fun i =>
  if (i 0).val % 8 = 0 ∧ (i 1).val = 0 then coreSum m c ((i 0).val / 8) else 0

/-- What the last point of a core's run writes back is the core's block of the accumulator array. -/
theorem acc_flushed (c : Dev nD) (t : Fin cfg0.N) (hf : (cfg0.win 4).flush t = true) :
    (dats m 0 c).flushed 4 t = ((cfg0.win 4).blk t).view.read (Elt Ideal) (accArr m c) := by
  have h15 : t.val % 16 = 15 := (flush0_4 t).mp hf
  obtain ⟨-, -, -, -, -, -, -, -, e0, e1, -⟩ := idx_facts t
  show (cfg0.win 4).cut (grid0.coords t) ((dats m 0 c).after 4 t) = _
  rw [after0_4]
  funext j
  have hj0 : (j 0).val < 8 := (j 0).isLt
  have hj1 : (j 1).val < 128 := (j 1).isLt
  have h0 : (((cfg0.win 4).blk t).view.emb j 0).val = t.val / 16 * 8 + (j 0).val := by
    show win0_4.index t (0 : Fin 2) * 8 + 1 * (j 0).val = t.val / 16 * 8 + (j 0).val
    rw [e0]; omega
  have h1 : (((cfg0.win 4).blk t).view.emb j 1).val = (j 1).val := by
    show win0_4.index t (1 : Fin 2) * 128 + 1 * (j 1).val = (j 1).val
    rw [e1]; omega
  refine (acc_fold m c t ((cfg0.win 4).xinj (grid0.coords t) j)).trans ?_
  rw [h15, View.read_apply]
  show 0 + ∑ s ∈ Finset.range (15 + 1), addend m c (16 * (t.val / 16) + s) ((cfg0.win 4).xinj (grid0.coords t) j)
    = accArr m c (((cfg0.win 4).blk t).view.emb j)
  unfold accArr
  rw [h0, h1]
  by_cases hc : (j 0).val = 0 ∧ (j 1).val = 0
  · have hq : (t.val / 16 * 8 + (j 0).val) / 8 = t.val / 16 := by omega
    have hcond : (t.val / 16 * 8 + (j 0).val) % 8 = 0 ∧ (j 1).val = 0 := ⟨by omega, hc.2⟩
    rw [if_pos hcond, hq]
    unfold coreSum
    refine congrArg (0 + ·) (Finset.sum_congr rfl fun s _ => ?_)
    exact if_pos hc
  · have hz : ∀ s ∈ Finset.range (15 + 1),
        addend m c (16 * (t.val / 16) + s) ((cfg0.win 4).xinj (grid0.coords t) j) = 0 := fun s _ => if_neg hc
    have hncond : ¬((t.val / 16 * 8 + (j 0).val) % 8 = 0 ∧ (j 1).val = 0) := by omega
    rw [if_neg hncond, Finset.sum_eq_zero hz, add_zero]

/-- An index of the accumulator array is in point `t`'s block iff each coordinate is in the block's range. -/
theorem mem_acc_blk (t : Fin cfg0.N) (i : S16x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v2_0).slice (win0_4.rect t)).set ↔ _
  rw [View.set_slice_whole, Rect.mem_set_unit]
  exact Iff.rfl

/-- Entry (a, l) lies in the block of core a / 8, written back at the last point of that core's run. -/
theorem acc_cover (i : S16x128.Idx) :
    ∃ t : Fin cfg0.N, (cfg0.win 4).flush t = true ∧ i ∈ ((cfg0.win 4).blk t).view.set := by
  have hN : cfg0.N = 32 := N_0
  have hi0 : (i 0).val < 16 := (i 0).isLt
  have hi1 : (i 1).val < 128 := (i 1).isLt
  obtain ⟨t, ht⟩ : ∃ t : Fin cfg0.N, t.val = 16 * ((i 0).val / 8) + 15 :=
    ⟨⟨16 * ((i 0).val / 8) + 15, by rw [hN]; omega⟩, rfl⟩
  obtain ⟨-, -, -, -, -, -, -, -, e0, e1, -⟩ := idx_facts t
  refine ⟨t, (flush0_4 t).mpr (by rw [ht]; omega), ?_⟩
  rw [mem_acc_blk]
  intro a
  match a with
  | ⟨0, _⟩ => show win0_4.index t (0 : Fin 2) * 8 ≤ (i 0).val ∧ (i 0).val < win0_4.index t (0 : Fin 2) * 8 + 8
              rw [e0, ht]; omega
  | ⟨1, _⟩ => show win0_4.index t (1 : Fin 2) * 128 ≤ (i 1).val ∧ (i 1).val < win0_4.index t (1 : Fin 2) * 128 + 128
              rw [e1]; omega

/-- THE ACCUMULATOR ARRAY after the run. -/
theorem acc_final (c : Dev nD) : (dats m 0 c).arrAt 4 cfg0.N = accArr m c :=
  (dats m 0 c).arrAt_eq_of_cover 4 (accArr m c) (acc_flushed m c) (fun i => acc_cover i)

end Cert.KernelIdeal.Bridge

end
-- ==== Proof.Regroup.lean ====
/-
  Sums regrouped, in any additive commutative monoid (no subtraction, no cancelling, so the laws hold for sums of
  extended reals as they stand):
    * a sum over the first n·B numbers is the sum over the n tiles of each tile's B entries;
    * two runs of sixteen consecutive addends are the thirty-two addends;
    * a 16×128 array that is zero except at the two corners (0,0) and (8,0) sums to its two corner values.
-/
import Mathlib.Algebra.BigOperators.Fin
import Mathlib.Algebra.BigOperators.Intervals
import Mathlib.Logic.Equiv.Fin.Basic

open scoped BigOperators

namespace Cert.Regroup

variable {M : Type*} [AddCommMonoid M]

/-- A sum over `Fin (n * B)` taken tile by tile: entry `p` of tile `t` is number `p + B * t`. -/
theorem sum_fin_tiles (n B : ℕ) (f : Fin (n * B) → M) :
    ∑ r : Fin (n * B), f r = ∑ t : Fin n, ∑ p : Fin B, f (finProdFinEquiv (t, p)) := by
  rw [← Equiv.sum_comp finProdFinEquiv f, Fintype.sum_prod_type]

/-- Two runs of sixteen consecutive addends, the second starting at 16, are the thirty-two addends. -/
theorem sum_two_runs (u : ℕ → M) :
    (∑ s ∈ Finset.range 16, u (16 * 0 + s)) + (∑ s ∈ Finset.range 16, u (16 * 1 + s)) = ∑ t : Fin 32, u t.val := by
  rw [Fin.sum_univ_eq_sum_range u 32, show (32 : ℕ) = 16 + 16 from rfl, Finset.sum_range_add]
  simp

/-- A 16×128 array whose entry (a, l) is `U (a / 8)` when `a` is a multiple of 8 and `l = 0`, and zero otherwise,
    sums to `U 0 + U 1`. -/
theorem sum_corners (U : ℕ → M) :
    ∑ a : Fin 16, ∑ l : Fin 128, (if a.val % 8 = 0 ∧ l.val = 0 then U (a.val / 8) else 0) = U 0 + U 1 := by
  have inner : ∀ a : Fin 16, ∑ l : Fin 128, (if a.val % 8 = 0 ∧ l.val = 0 then U (a.val / 8) else 0)
      = if a.val % 8 = 0 then U (a.val / 8) else 0 := by
    intro a
    rw [Finset.sum_eq_single (0 : Fin 128)]
    · simp
    · intro l _ hl
      have : l.val ≠ 0 := fun h => hl (Fin.ext h)
      simp [this]
    · intro h; exact absurd (Finset.mem_univ _) h
  simp only [inner]
  rw [← Equiv.sum_comp (finProdFinEquiv (m := 2) (n := 8)), Fintype.sum_prod_type]
  have outer : ∀ q : Fin 2, ∑ r : Fin 8, (if (finProdFinEquiv (q, r)).val % 8 = 0 then U ((finProdFinEquiv (q, r)).val / 8) else 0)
      = U q.val := by
    intro q
    rw [Finset.sum_eq_single (0 : Fin 8)]
    · have e1 : (0 + 8 * q.val) % 8 = 0 := by omega
      have e2 : (0 + 8 * q.val) / 8 = q.val := by omega
      simp only [finProdFinEquiv_apply_val, Fin.val_zero, e1, e2, if_true]
    · intro r _ hr
      have h1 : r.val ≠ 0 := fun h => hr (Fin.ext h)
      have h2 : r.val < 8 := r.isLt
      have h3 : ¬ (r.val + 8 * q.val) % 8 = 0 := by omega
      simp only [finProdFinEquiv_apply_val, h3, if_false]
    · intro h; exact absurd (Finset.mem_univ _) h
  simp only [outer, Fin.sum_univ_two]
  rfl

end Cert.Regroup
-- ==== Proof.Spec.lean ====
/-
  The result, as one function of the four argument arrays.

  Write X for x with its two leading axes merged: X[r,d] = x[r / 128, r % 128, d] for r < 32768.  Then
      out[r] = ( Σ_d X[r,d]·W[0,d]  +  b[0] )  +  ( z  +  Σ_r' Σ_e T[r',e] ),
      T[r,e] = h·Σ_d (X[r,d]·X[r,d])·(V[d,e]·V[d,e])  −  (Σ_d X[r,d]·V[d,e])·(Σ_d X[r,d]·V[d,e]),
  where h is the float word of one half and z the float word of zero, kept as the words both programs spell.
  The big sum is met in two groupings: by the 32 tiles of 1024 rows (how the kernel's grid visits the rows), and
  by the 256 batches of 128 rows (how the reference's three-axis array is indexed).  Both are the sum over all
  32768 rows, by regrouping alone.
-/
import proofs.«102572_j81664508166721_2_alg».proof.Proof.Regroup
import Idealize.ShloMosaic.PureOps.Ideal
import Idealize.ShloMosaic.Lib.ValueIdx

noncomputable section

open scoped BigOperators
open Idealize.ShloMosaic Idealize.ShloMosaic.ValueIdx

namespace Cert.Spec

/-- x with its two leading axes merged, by coordinates. -/
def rows (x : (⟨3, ![256, 128, 512]⟩ : Shape).Idx → EReal) (r : Fin 32768) (d : Fin 512) : EReal :=
  x (ix3 (⟨r.val / 128, by have := r.isLt; omega⟩ : Fin 256) (⟨r.val % 128, by omega⟩ : Fin 128) d)

/-- One (row, lane) term of the interaction sum. -/
def term (h : EReal) (X : Fin 32768 → Fin 512 → EReal) (V : (⟨2, ![512, 512]⟩ : Shape).Idx → EReal) (r : Fin 32768) (e : Fin 512) : EReal :=
  h * (∑ d : Fin 512, (X r d * X r d) * (V (ix2 d e) * V (ix2 d e)))
    - (∑ d : Fin 512, X r d * V (ix2 d e)) * (∑ d : Fin 512, X r d * V (ix2 d e))

/-- The interaction sum: every row, every lane. -/
def inter (h : EReal) (X : Fin 32768 → Fin 512 → EReal) (V : (⟨2, ![512, 512]⟩ : Shape).Idx → EReal) : EReal :=
  ∑ r : Fin 32768, ∑ e : Fin 512, term h X V r e

/-- The result at row `r`. -/
def out (h z : EReal) (x : (⟨3, ![256, 128, 512]⟩ : Shape).Idx → EReal) (W : (⟨2, ![1, 512]⟩ : Shape).Idx → EReal)
    (b : (⟨1, ![1]⟩ : Shape).Idx → EReal) (V : (⟨2, ![512, 512]⟩ : Shape).Idx → EReal) (r : Fin 32768) : EReal :=
  ((∑ d : Fin 512, rows x r d * W (ix2 (0 : Fin 1) d)) + b (ix1 (0 : Fin 1))) + (z + inter h (rows x) V)

/-- Row `p` of tile `t`. -/
def tileRow (t : Fin 32) (p : Fin 1024) : Fin 32768 := ⟨t.val * 1024 + p.val, by have := t.isLt; have := p.isLt; omega⟩

/-- Row `n` of batch `b`. -/
def batchRow (b : Fin 256) (n : Fin 128) : Fin 32768 := ⟨b.val * 128 + n.val, by have := b.isLt; have := n.isLt; omega⟩

/-- The interaction sum, tile by tile. -/
theorem inter_by_tiles (h : EReal) (X : Fin 32768 → Fin 512 → EReal) (V : (⟨2, ![512, 512]⟩ : Shape).Idx → EReal) :
    inter h X V = ∑ t : Fin 32, ∑ p : Fin 1024, ∑ e : Fin 512, term h X V (tileRow t p) e := by
  unfold inter
  rw [Cert.Regroup.sum_fin_tiles 32 1024 (fun r => ∑ e : Fin 512, term h X V r e)]
  refine Finset.sum_congr rfl fun t _ => Finset.sum_congr rfl fun p _ => ?_
  have e : (finProdFinEquiv (t, p) : Fin (32 * 1024)) = tileRow t p := Fin.ext (by
    show p.val + 1024 * t.val = t.val * 1024 + p.val
    omega)
  rw [e]

/-- The interaction sum, batch by batch. -/
theorem inter_by_batches (h : EReal) (X : Fin 32768 → Fin 512 → EReal) (V : (⟨2, ![512, 512]⟩ : Shape).Idx → EReal) :
    inter h X V = ∑ b : Fin 256, ∑ n : Fin 128, ∑ e : Fin 512, term h X V (batchRow b n) e := by
  unfold inter
  rw [Cert.Regroup.sum_fin_tiles 256 128 (fun r => ∑ e : Fin 512, term h X V r e)]
  refine Finset.sum_congr rfl fun b _ => Finset.sum_congr rfl fun n _ => ?_
  have e : (finProdFinEquiv (b, n) : Fin (256 * 128)) = batchRow b n := Fin.ext (by
    show n.val + 128 * b.val = b.val * 128 + n.val
    omega)
  rw [e]

/-- Row `n` of batch `b` of the merged array is x[b, n, ·]. -/
theorem rows_batchRow (x : (⟨3, ![256, 128, 512]⟩ : Shape).Idx → EReal) (b : Fin 256) (n : Fin 128) (d : Fin 512) :
    rows x (batchRow b n) d = x (ix3 b n d) := by
  unfold rows batchRow
  have hb := b.isLt
  have hn := n.isLt
  congr 1
  funext a
  apply Fin.ext
  match a with
  | ⟨0, _⟩ => show (b.val * 128 + n.val) / 128 = b.val; omega
  | ⟨1, _⟩ => show (b.val * 128 + n.val) % 128 = n.val; omega
  | ⟨2, _⟩ => rfl

/-- A sum over a three-axis index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let E : (⟨3, ![n0, n1, n2]⟩ : Shape).Idx ≃ Fin n0 × Fin n1 × Fin n2 :=
    { toFun := fun i => (i 0, i 1, i 2), invFun := fun p => ix3 p.1 p.2.1 p.2.2,
      left_inv := fun i => (eq_ix3 i).symm, right_inv := fun _ => rfl }
  rw [← Equiv.sum_comp E.symm f, Fintype.sum_prod_type]
  refine Finset.sum_congr rfl fun a _ => ?_
  rw [Fintype.sum_prod_type]
  rfl

end Cert.Spec

end
-- ==== Proof.KernelValue.lean ====
/-
  The kernel's result is the specification.

  After the region the program adds, row by row,  (linear array + b) + (z + the sum of all 16×128 entries of the
  accumulator array).  The accumulator array is zero except for the two cores' totals, so its sum is
      (0 + Σ_{k<16} s(k)) + (0 + Σ_{k<16} s(16 + k)) = Σ_{t<32} s(t),
  the block sums of all 32 tiles; and tile t's block sum is the specification's term summed over the tile's 1024
  rows and 512 lanes.  Regrouped tile by tile, that is the interaction sum over all 32768 rows.
-/
import proofs.«102572_j81664508166721_2_alg».proof.Proof.Arrays
import proofs.«102572_j81664508166721_2_alg».proof.Proof.Spec
import Idealize.ShloMosaic.Lib.StableHlo.Run

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Bridge

open Cert.KernelIdeal Cert.KernelIdeal.Gen

variable (m : (ℓ : Loc nD τ sig) → Buf (Elt Ideal) ℓ)

/-- The host's sum of all the entries of a 16×128 array: the initial value plus the total. -/
theorem host_sum (y : FVec Ideal S16x128 .f32) (i : S_.Idx) :
    Host.reduceAdd (F := Ideal) y (constant (F := Ideal) S_ .f32 0x00000000#32) reducesTo_S16x128_S_d0_1 h_S_ i
      = Ideal.ofBits .f32 0x00000000#32 + ∑ j : S16x128.Idx, y j := by
  simp only [Host.reduceAdd, Ideal.hostReduceAdd_def]
  exact Ideal.hostReduceAdd_total reducesTo_S16x128_S_d0_1 (fun b => b.elim0) y _ i

/-- The lines after the region, as a function of the two arrays the region leaves and the bias:
    (linear + b) + (z + Σ accumulator entries), b and the scalar broadcast to every row. -/
def tailOf (lin : FVec Ideal S32768x1 .f32) (b : FVec Ideal S1 .f32) (acc : FVec Ideal S16x128 .f32) : FVec Ideal S32768x1 .f32 :=
  addf (addf lin (broadcastInDim S32768x1 ![0, 1] bcast_S1x1_S32768x1_0_1 (broadcastInDim S1x1 ![1] bcast_S1_S1x1_1 b)))
    (broadcastInDim S32768x1 ![] bcast_S_S32768x1
      (Host.reduceAdd (F := Ideal) acc (constant (F := Ideal) S_ .f32 0x00000000#32) reducesTo_S16x128_S_d0_1 h_S_))

/-- … read at row `r`. -/
theorem tailOf_apply (lin : FVec Ideal S32768x1 .f32) (b : FVec Ideal S1 .f32) (acc : FVec Ideal S16x128 .f32)
    (r : Fin 32768) (u : Fin 1) :
    tailOf lin b acc (ix2 r u)
      = (lin (ix2 r u) + b (ix1 (0 : Fin 1))) + (Ideal.ofBits .f32 0x00000000#32 + ∑ j : S16x128.Idx, acc j) := by
  unfold tailOf
  show (lin (ix2 r u)
      + broadcastInDim S32768x1 ![0, 1] bcast_S1x1_S32768x1_0_1 (broadcastInDim S1x1 ![1] bcast_S1_S1x1_1 b) (ix2 r u))
      + broadcastInDim S32768x1 ![] bcast_S_S32768x1
          (Host.reduceAdd (F := Ideal) acc (constant (F := Ideal) S_ .f32 0x00000000#32) reducesTo_S16x128_S_d0_1 h_S_) (ix2 r u) = _
  refine congrArg₂ (· + ·) (congrArg (lin (ix2 r u) + ·) ?_) ?_
  · refine (broadcastInDim_apply _ bcast_S1x1_S32768x1_0_1 _ (ix2 r u) (ix2 (0 : Fin 1) (0 : Fin 1)) (fun a => match a with
      | ⟨0, _⟩ => by show 0 = if (1 : Nat) = 1 then 0 else r.val; rw [if_pos rfl]
      | ⟨1, _⟩ => by show 0 = if (1 : Nat) = 1 then 0 else u.val; rw [if_pos rfl])).trans ?_
    exact broadcastInDim_apply _ bcast_S1_S1x1_1 _ (ix2 (0 : Fin 1) (0 : Fin 1)) (ix1 (0 : Fin 1)) (fun a => match a with
      | ⟨0, _⟩ => by show 0 = if (1 : Nat) = 1 then 0 else 0; rw [if_pos rfl])
  · exact (broadcastInDim_apply _ bcast_S_S32768x1 _ (ix2 r u) ix0 (fun a => a.elim0)).trans (host_sum acc ix0)

/-- The program's lines after the region are that function of the arrays the region leaves. -/
theorem tail_eq (c : Dev nD) :
    Pipeline.afterTail₀ cfgs (dats m) 0 (V0 m) [hostOps1] c main_v8
      = tailOf (linArr m c) (m ((c : Thread nD τ).loc main_arg2)) (accArr m c) := by
  have e5 : Pipeline.withArrays (cfgs 0).spec c (V0 m c) (fun w => (dats m 0 c).arrAt w (cfgs 0).N) (Proc.devRef .tc main_v2_1)
      = linArr m c :=
    (Pipeline.withArrays_arr spec0 launch0.win.arr_inj c _ _ 5).trans (lin_final m c)
  have e4 : Pipeline.withArrays (cfgs 0).spec c (V0 m c) (fun w => (dats m 0 c).arrAt w (cfgs 0).N) (Proc.devRef .tc main_v2_0)
      = accArr m c :=
    (Pipeline.withArrays_arr spec0 launch0.win.arr_inj c _ _ 4).trans (acc_final m c)
  have e2 : Pipeline.withArrays (cfgs 0).spec c (V0 m c) (fun w => (dats m 0 c).arrAt w (cfgs 0).N) (Proc.devRef .tc main_arg2)
      = (m ((c : Thread nD τ).loc main_arg2)) :=
    (Pipeline.withArrays_of_ne _ c (V0 m c) _ main_arg2 (by exact (by decide : ∀ w, Pipeline.arrRef spec0 w ≠ main_arg2))).trans
      (V_main_arg2 m c)
  unfold Pipeline.afterTail₀
  show StableHlo.after hostOps1 _ (Proc.devRef .tc main_v8) = _
  after_results
  rw [e5, e4, e2]
  all_goals rfl

/-- The accumulator array sums to the two cores' totals. -/
theorem acc_total (c : Dev nD) : ∑ j : S16x128.Idx, accArr m c j = coreSum m c 0 + coreSum m c 1 :=
  (sum_idx2 (accArr m c)).trans (Cert.Regroup.sum_corners (coreSum m c))

/-- Tile `t`'s block sum is the specification's term over the tile's rows and lanes. -/
theorem tile_eq (c : Dev nD) (t : Fin cfg0.N) (t' : Fin 32) (ht : t'.val = t.val) :
    tileSum (iblk m c 0 t) (iblk m c 1 t) (iblk m c 2 t)
      = ∑ p : Fin 1024, ∑ e : Fin 512, Cert.Spec.term (Ideal.ofBits .f32 0x3F000000#32)
          (Cert.Spec.rows (m ((c : Thread nD τ).loc main_arg0))) (m ((c : Thread nD τ).loc main_arg3)) (Cert.Spec.tileRow t' p) e := by
  unfold tileSum Cert.Spec.term
  refine Finset.sum_congr rfl fun p _ => Finset.sum_congr rfl fun e _ => ?_
  have hx : ∀ d : Fin 512, (iblk m c 0 t : Vec Ideal S1024x512 .f32) (ix2 p d)
      = Cert.Spec.rows (m ((c : Thread nD τ).loc main_arg0)) (Cert.Spec.tileRow t' p) d := fun d => by
    rw [x_block m c t p d (Cert.Spec.tileRow t' p) (by show t'.val * 1024 + p.val = t.val * 1024 + p.val; rw [ht]),
      entry_x, merged_apply]
    rfl
  have hv : ∀ d : Fin 512, (iblk m c 1 t : Vec Ideal S512x512 .f32) (ix2 d e) = (m ((c : Thread nD τ).loc main_arg3)) (ix2 d e) := fun d => by
    rw [v_block, V_main_arg3]
  have hv2 : ∀ d : Fin 512, (iblk m c 2 t : Vec Ideal S512x512 .f32) (ix2 d e)
      = (mulf (m ((c : Thread nD τ).loc main_arg3)) (m ((c : Thread nD τ).loc main_arg3)) : FVec Ideal S512x512 .f32) (ix2 d e) := fun d => by
    rw [v2_block, entry_v2]
  simp only [hx, hv, hv2]
  rfl

/-- The two cores' totals are the interaction sum. -/
theorem cores_total (c : Dev nD) :
    coreSum m c 0 + coreSum m c 1
      = Cert.Spec.inter (Ideal.ofBits .f32 0x3F000000#32) (Cert.Spec.rows (m ((c : Thread nD τ).loc main_arg0))) (m ((c : Thread nD τ).loc main_arg3)) := by
  have hN : cfg0.N = 32 := N_0
  unfold coreSum
  rw [zero_add, zero_add, Cert.Regroup.sum_two_runs (tileAt m c), Cert.Spec.inter_by_tiles]
  refine Finset.sum_congr rfl fun t' _ => ?_
  have ht : t'.val < cfg0.N := by rw [hN]; exact t'.isLt
  unfold tileAt
  rw [dif_pos ht]
  exact tile_eq m c ⟨t'.val, ht⟩ t' rfl

/-- THE KERNEL'S RESULT at row `r` is the specification's. -/
theorem kernel_value (c : Dev nD) (r : Fin 32768) (u : Fin 1) :
    Pipeline.afterTail₀ cfgs (dats m) 0 (V0 m) [hostOps1] c main_v8 (ix2 r u)
      = Cert.Spec.out (Ideal.ofBits .f32 0x3F000000#32) (Ideal.ofBits .f32 0x00000000#32)
          (m ((c : Thread nD τ).loc main_arg0)) (m ((c : Thread nD τ).loc main_arg1)) (m ((c : Thread nD τ).loc main_arg2)) (m ((c : Thread nD τ).loc main_arg3)) r := by
  rw [tail_eq, tailOf_apply]
  unfold Cert.Spec.out
  refine congrArg₂ (· + ·) (congrArg₂ (· + ·) ?_ rfl) (congrArg₂ (· + ·) rfl ?_)
  · -- the linear array at row r
    show linRow m c r = _
    unfold linRow linRowOf
    refine Finset.sum_congr rfl fun d _ => ?_
    rw [entry_x, merged_apply, V_main_arg1]
    all_goals rfl
  · -- the accumulator array's total
    rw [acc_total, cores_total]

/-- The result array: the specification, row by row. -/
def result (c : Dev nD) : S32768x1.Idx → EReal := fun i =>
  Cert.Spec.out (Ideal.ofBits .f32 0x3F000000#32) (Ideal.ofBits .f32 0x00000000#32)
    (m ((c : Thread nD τ).loc main_arg0)) (m ((c : Thread nD τ).loc main_arg1)) (m ((c : Thread nD τ).loc main_arg2)) (m ((c : Thread nD τ).loc main_arg3)) ⟨(i 0).val, (i 0).isLt⟩

theorem result_eq (c : Dev nD) :
    (Pipeline.afterTail₀ cfgs (dats m) 0 (V0 m) [hostOps1] c main_v8 : S32768x1.Idx → EReal) = result m c := by
  funext i
  have e : i = ix2 (⟨(i 0).val, (i 0).isLt⟩ : Fin 32768) (⟨(i 1).val, (i 1).isLt⟩ : Fin 1) := by
    funext a
    apply Fin.ext
    match a with
    | ⟨0, _⟩ => rfl
    | ⟨1, _⟩ => rfl
  exact (congrArg (Pipeline.afterTail₀ cfgs (dats m) 0 (V0 m) [hostOps1] c main_v8 : S32768x1.Idx → EReal) e).trans
    (kernel_value m c _ _)

/-- THE RUN, READ: every weakly fair execution ends with the result array at the specification and the four
    argument arrays as they were. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c)))⟩)
    (run_main m ρ)

end Cert.KernelIdeal.Bridge

end
-- ==== Proof.RefValue.lean ====
/-
  The reference's result, read one operation at a time, is the specification.

  Row r of the reshaped result is entry (r / 128, r % 128, 0) of  (x·Wᵀ + b) + interaction:  the contraction of
  x with W over the last axis, plus b, plus the constant z plus the sum over every (batch, row, lane) of
  h·(x∘x)·(V∘V) − (x·V)∘(x·V).  The three-axis sum is taken batch by batch, row by row, which is the sum over the
  32768 merged rows (regrouping only).
-/
import proofs.«102572_j81664508166721_2_alg».proof.Proof.Gen.ReferenceIdeal.Read
import proofs.«102572_j81664508166721_2_alg».proof.Proof.Spec

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-- Row r of the reshaped result comes from entry (r / 128, r % 128, 0); its contraction reads x there. -/
theorem lin_left (r : Fin 32768) (u : Fin 1) (k : Fin 512) :
    lidx_main_v0 (idx_main_v15 (ix2 r u)) k
      = ix3 (⟨r.val / 128, by have := r.isLt; omega⟩ : Fin 256) (⟨r.val % 128, by omega⟩ : Fin 128) k := by
  have hu : u.val = 0 := by omega
  funext a
  apply Fin.ext
  match a with
  | ⟨0, _⟩ => show (r.val * 1 + u.val) / 128 = r.val / 128; rw [hu]; omega
  | ⟨1, _⟩ => show (r.val * 1 + u.val) / 1 % 128 = r.val % 128; rw [hu]; omega
  | ⟨2, _⟩ => rfl

/-- … and W at (0, k). -/
theorem lin_right (j : S256x128x1.Idx) (k : Fin 512) : ridx_main_v0 j k = ix2 (0 : Fin 1) k := by
  have h2 : (j 2).val < 1 := (j 2).isLt
  funext a
  apply Fin.ext
  match a with
  | ⟨0, _⟩ => show (j 2).val = 0; omega
  | ⟨1, _⟩ => rfl

/-- The bias is read at its one entry. -/
theorem bias_idx (j : S1x1x1.Idx) : idx_main_v1 j = ix1 (0 : Fin 1) := by
  funext a
  match a with
  | ⟨0, _⟩ => rfl

/-- The contractions at (b, n, e) read x at (b, n, k) and V (or V∘V) at (k, e). -/
theorem left_idx (b : Fin 256) (n : Fin 128) (e k : Fin 512) : lidx_main_v4 (ix3 b n e) k = ix3 b n k := by
  funext a
  apply Fin.ext
  match a with
  | ⟨0, _⟩ => rfl
  | ⟨1, _⟩ => rfl
  | ⟨2, _⟩ => rfl
theorem right_idx (b : Fin 256) (n : Fin 128) (e k : Fin 512) : ridx_main_v4 (ix3 b n e) k = ix2 k e := by
  funext a
  apply Fin.ext
  match a with
  | ⟨0, _⟩ => rfl
  | ⟨1, _⟩ => rfl
theorem left_idx' (b : Fin 256) (n : Fin 128) (e k : Fin 512) : lidx_main_v7 (ix3 b n e) k = ix3 b n k := left_idx b n e k
theorem right_idx' (b : Fin 256) (n : Fin 128) (e k : Fin 512) : ridx_main_v7 (ix3 b n e) k = ix2 k e := right_idx b n e k

/-- One term of the reference's three-axis sum is the specification's term at the merged row. -/
theorem term_eq (x0 : (⟨S256x128x512, .f32⟩ : BufTy).Contents (Elt Ideal)) (x3 : (⟨S512x512, .f32⟩ : BufTy).Contents (Elt Ideal))
    (b : Fin 256) (n : Fin 128) (e : Fin 512) :
    val_main_v11 (F := Ideal) x0 x3 (ix3 b n e)
      = Cert.Spec.term (Ideal.ofBits .f32 0x3F000000#32) (Cert.Spec.rows x0) x3 (Cert.Spec.batchRow b n) e := by
  rw [val_main_v11_apply, val_main_v9_apply, val_main_v10_apply, val_main_v8_apply, val_main_cst_apply,
    val_main_v7_apply, val_main_v4_apply]
  unfold Cert.Spec.term
  simp only [Ideal.subf_def, Ideal.mulf_def, Ideal.ofBits_def, val_main_v5_apply, val_main_v6_apply, left_idx, right_idx,
    left_idx', right_idx', Cert.Spec.rows_batchRow]

/-- THE REFERENCE IS THE SPECIFICATION, row by row. -/
theorem ref_eq (x0 : (⟨S256x128x512, .f32⟩ : BufTy).Contents (Elt Ideal)) (x1 : (⟨S1x512, .f32⟩ : BufTy).Contents (Elt Ideal))
    (x2 : (⟨S1, .f32⟩ : BufTy).Contents (Elt Ideal)) (x3 : (⟨S512x512, .f32⟩ : BufTy).Contents (Elt Ideal))
    (r : Fin 32768) (u : Fin 1) :
    val_main_v15 (F := Ideal) x0 x1 x2 x3 (ix2 r u)
      = Cert.Spec.out (Ideal.ofBits .f32 0x3F000000#32) (Ideal.ofBits .f32 0x00000000#32) x0 x1 x2 x3 r := by
  rw [val_main_v15_apply, val_main_v14_apply, val_main_v3_apply, val_main_v0_apply, val_main_v2_apply, val_main_v1_apply,
    val_main_v13_apply, val_main_v12_apply, val_main_cst_0_apply]
  unfold Cert.Spec.out
  simp only [Ideal.addf_def, Ideal.ofBits_def]
  refine congrArg₂ (· + ·) (congrArg₂ (· + ·) ?_ ?_) (congrArg (Ideal.ofBits .f32 0x00000000#32 + ·) ?_)
  · refine Finset.sum_congr rfl fun k _ => ?_
    rw [lin_left, lin_right]
    rfl
  · rw [bias_idx]
  · rw [Cert.Spec.inter_by_batches, Cert.Spec.sum_idx3]
    exact Finset.sum_congr rfl fun b _ => Finset.sum_congr rfl fun n _ => Finset.sum_congr rfl fun e _ => term_eq x0 x3 b n e

/-- … and so as a whole array. -/
theorem ref_result (x0 : (⟨S256x128x512, .f32⟩ : BufTy).Contents (Elt Ideal)) (x1 : (⟨S1x512, .f32⟩ : BufTy).Contents (Elt Ideal))
    (x2 : (⟨S1, .f32⟩ : BufTy).Contents (Elt Ideal)) (x3 : (⟨S512x512, .f32⟩ : BufTy).Contents (Elt Ideal)) :
    val_main_v15 (F := Ideal) x0 x1 x2 x3
      = fun i : S32768x1.Idx => Cert.Spec.out (Ideal.ofBits .f32 0x3F000000#32) (Ideal.ofBits .f32 0x00000000#32) x0 x1 x2 x3
          ⟨(i 0).val, (i 0).isLt⟩ := by
  funext i
  have e : i = ix2 (⟨(i 0).val, (i 0).isLt⟩ : Fin 32768) (⟨(i 1).val, (i 1).isLt⟩ : Fin 1) := by
    funext a
    apply Fin.ext
    match a with
    | ⟨0, _⟩ => rfl
    | ⟨1, _⟩ => rfl
  exact (congrArg (val_main_v15 (F := Ideal) x0 x1 x2 x3) e).trans (ref_eq x0 x1 x2 x3 _ _)

end Cert.ReferenceIdeal.RefValue

end
-- ==== Proof.lean ====
/-
  The claim: a factorization-machine layer computed by a tiled kernel equals its plain reference on the extended
  reals.

  For x of shape [256, 128, 512] (read as 32768 rows X[r, ·]), W [1, 512], b [1], V [512, 512], both programs compute
      out[r] = ( Σ_d X[r,d]·W[0,d] + b[0] ) + ( 0 + Σ_r' Σ_e ( ½·Σ_d X[r',d]²·V[d,e]² − (Σ_d X[r',d]·V[d,e])² ) ).
  The reference forms the big sum in one reduction over its [256, 128, 512] array.  The kernel visits the rows in 32
  tiles of 1024, two cores of sixteen tiles each: every tile adds its block sum into the corner of its core's
  8×128 accumulator block (reset to zero at the core's first tile, written back after its last), the two blocks'
  entries are summed after the kernel, and the per-row linear term is written tile by tile.  The two results differ
  only in how one sum of 32768·512 terms is grouped, plus 2046 zeros; addition of extended reals is commutative and
  associative with 0 neutral, so they are equal — at every input, infinite ones included: the precondition is never
  opened.  Format changes are the identity at the ideal instance and both matrix products accumulate into zero.

  The modules: Regroup (sums regrouped), Spec (the result as one function), Payload (the body's arithmetic at an
  index), Cases (what one grid point leaves in the two output blocks), Blocks (the input blocks read from the
  arrays), Accumulate (the accumulator block after every point, as a fold with resets), Arrays (the two output
  arrays after the run), KernelValue (the lines after the kernel; the kernel's result is the specification),
  RefValue (the reference is the specification).
-/
import proofs.«102572_j81664508166721_2_alg».proof.Defs
import proofs.«102572_j81664508166721_2_alg».proof.Proof.Gen.Kernel
import proofs.«102572_j81664508166721_2_alg».proof.Proof.Gen.Kernel.Skeleton
import proofs.«102572_j81664508166721_2_alg».proof.Proof.Gen.Kernel.Launch
import proofs.«102572_j81664508166721_2_alg».proof.Proof.Gen.Kernel.Points
import proofs.«102572_j81664508166721_2_alg».proof.Proof.Gen.Kernel.Frame
import proofs.«102572_j81664508166721_2_alg».proof.Proof.Gen.KernelIdeal
import proofs.«102572_j81664508166721_2_alg».proof.Proof.Gen.KernelIdeal.Skeleton
import proofs.«102572_j81664508166721_2_alg».proof.Proof.Gen.KernelIdeal.Launch
import proofs.«102572_j81664508166721_2_alg».proof.Proof.Gen.KernelIdeal.Points
import proofs.«102572_j81664508166721_2_alg».proof.Proof.Gen.KernelIdeal.Frame
import proofs.«102572_j81664508166721_2_alg».proof.Proof.Gen.ReferenceIdeal
import proofs.«102572_j81664508166721_2_alg».proof.Proof.Gen.Pre_finite_inputs
import proofs.«102572_j81664508166721_2_alg».proof.Proof.Gen.ReferenceIdeal.Run
import proofs.«102572_j81664508166721_2_alg».proof.Proof.Gen.ReferenceIdeal.Read
import proofs.«102572_j81664508166721_2_alg».proof.Proof.KernelValue
import proofs.«102572_j81664508166721_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of array operations: it runs, and writes no argument. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote no operation. -/
theorem preserves : Cert.preserves_Kernel_KernelIdeal := trivial

/-- Both programs end with the result array at the specification of arguments that agree. -/
theorem algebraic : Cert.algebraic_KernelIdeal_ReferenceIdeal := by
  intro m ρ m' ρ' _ hagree
  refine ⟨fun c => Cert.KernelIdeal.Bridge.result m c, Cert.KernelIdeal.Bridge.kernel_run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v15_eq _ _ _ _)).trans ?_
  rw [Cert.ReferenceIdeal.RefValue.ref_result, (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
